-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S512x100000 : Shape := ⟨2, ![512, 100000]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_

variable [Facts]

def fn {F : FTy → Type} [FloatOps F] (main_arg0 : FVec F S512x512 .f32) (main_arg1 : IVec S512 32) (main_arg2 : FVec F S512x100000 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x100000 .f32 := Host.absf main_arg2
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  main_v8
-- ==== Kernel.lean ====
abbrev S512x512 : Shape := ⟨2, ![512, 512]⟩
abbrev S512 : Shape := ⟨1, ![512]⟩
abbrev S512x100000 : Shape := ⟨2, ![512, 100000]⟩
abbrev S512x1 : Shape := ⟨2, ![512, 1]⟩
abbrev S512x1536 : Shape := ⟨2, ![512, 1536]⟩
abbrev S1536 : Shape := ⟨1, ![1536]⟩
abbrev S1x1536 : Shape := ⟨2, ![1, 1536]⟩

abbrev nBuf : Space → Nat
  | .hbm => 5
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x100000, .f32⟩
  | .hbm, ⟨3, _⟩ => ⟨S512x1, .i32⟩
  | .hbm, ⟨4, _⟩ => ⟨S512x100000, .f32⟩
  | .local _ .vmem, ⟨0, _⟩ => ⟨S512x512, .f32⟩
  | .local _ .vmem, ⟨1, _⟩ => ⟨S512x1536, .f32⟩
  | .local _ .vmem, ⟨2, _⟩ => ⟨S512x1536, .f32⟩
  | .local _ .vmem, ⟨3, _⟩ => ⟨S512x1, .i32⟩
  | .local _ .vmem, ⟨4, _⟩ => ⟨S512x1536, .f32⟩
  | .local _ .vmem, ⟨5, _⟩ => ⟨S512x1536, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512_S512x1 : S512.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  broadcasts_S512x1_S512x512 : S512x1.Broadcasts S512x512
  inb_S512x1536_S512x1536_0_0 : ∀ a, (![0, 0] : Fin 2 → Nat) a + S512x1536.size a ≤ S512x1536.size a
  h_S512x1536 : 0 < S512x1536.numel
  reduces_S512x1536_S1536 : S512x1536.Reduces [0] S1536
  shapeCasts_S1536_S1x1536 : S1536.ShapeCasts S1x1536
  broadcasts_S1x1536_S512x1536 : S1x1536.Broadcasts S512x1536
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1536_d1_w32 : S512x1536.Iotas .tc 32 [1]
  broadcasts_S512x1_S512x1536 : S512x1.Broadcasts S512x1536
  reduces_S512x1536_S512 : S512x1536.Reduces [1] S512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1536.size a < S512x100000.size a
  hwx0_1 : ∀ i : grid0.Coords, EltTy.bits .f32 = 32 ∨ (Rect.unit (s := S512x100000) (fun a => cc0_transform_1 i a * S512x1536.size a) (fun a => (Pipeline.Clip.of (cc0_transform_1 i a) (S512x1536.size a) (S512x100000.size a)).extent (S512x1536.size a)) fun a => Pipeline.Clip.inb (Pipeline.Clip.ok_of (hstart0_1 i a))).WholeWords (EltTy.packing .f32)
  hwxs0_1 : ∀ i : grid0.Coords, EltTy.bits .f32 = 32 ∨ (Rect.unit (s := S512x1536) (fun _ => 0) (fun a => (Pipeline.Clip.of (cc0_transform_1 i a) (S512x1536.size a) (S512x100000.size a)).extent (S512x1536.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1536.size a < S512x100000.size a
  hwx0_3 : ∀ i : grid0.Coords, EltTy.bits .f32 = 32 ∨ (Rect.unit (s := S512x100000) (fun a => cc0_transform_3 i a * S512x1536.size a) (fun a => (Pipeline.Clip.of (cc0_transform_3 i a) (S512x1536.size a) (S512x100000.size a)).extent (S512x1536.size a)) fun a => Pipeline.Clip.inb (Pipeline.Clip.ok_of (hstart0_3 i a))).WholeWords (EltTy.packing .f32)
  hwxs0_3 : ∀ i : grid0.Coords, EltTy.bits .f32 = 32 ∨ (Rect.unit (s := S512x1536) (fun _ => 0) (fun a => (Pipeline.Clip.of (cc0_transform_3 i a) (S512x1536.size a) (S512x100000.size a)).extent (S512x1536.size a)) fun a => (Nat.zero_add _).trans_le (Pipeline.Clip.extent_le (Pipeline.Clip.ok_of (hstart0_3 i a)))).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S512x1536.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S512x1536.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S512 : Shape := ⟨1, ![512]⟩
abbrev S512x100000 : Shape := ⟨2, ![512, 100000]⟩
abbrev S_ : Shape := ⟨0, ![]⟩
abbrev S512x1 : Shape := ⟨2, ![512, 1]⟩
abbrev S100000 : Shape := ⟨1, ![100000]⟩
abbrev S1x100000 : Shape := ⟨2, ![1, 100000]⟩

abbrev nBuf : Space → Nat
  | .hbm => 72
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x100000, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x100000, .f32⟩
  | .hbm, ⟨14, _⟩ => ⟨S_, .f32⟩
  | .hbm, ⟨15, _⟩ => ⟨S100000, .f32⟩
  | .hbm, ⟨16, _⟩ => ⟨S1x100000, .f32⟩
  | .hbm, ⟨17, _⟩ => ⟨S_, .f32⟩
  | .hbm, ⟨18, _⟩ => ⟨S1x100000, .f32⟩
  | .hbm, ⟨19, _⟩ => ⟨S1x100000, .f32⟩
  | .hbm, ⟨20, _⟩ => ⟨S1x100000, .f32⟩
  | .hbm, ⟨21, _⟩ => ⟨S512x100000, .f32⟩
  | .hbm, ⟨22, _⟩ => ⟨S512x100000, .f32⟩
  | .hbm, ⟨23, _⟩ => ⟨S512x100000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x100000, .f32⟩
  | .hbm, ⟨40, _⟩ => ⟨S512x100000, .f32⟩
  | .hbm, ⟨41, _⟩ => ⟨S_, .f32⟩
  | .hbm, ⟨42, _⟩ => ⟨S512x100000, .f32⟩
  | .hbm, ⟨43, _⟩ => ⟨S512x100000, .f32⟩
  | .hbm, ⟨44, _⟩ => ⟨S512x100000, .f32⟩
  | .hbm, ⟨45, _⟩ => ⟨S_, .f32⟩
  | .hbm, ⟨46, _⟩ => ⟨S512x100000, .f32⟩
  | .hbm, ⟨47, _⟩ => ⟨S512x100000, .f32⟩
  | .hbm, ⟨48, _⟩ => ⟨S_, .f32⟩
  | .hbm, ⟨49, _⟩ => ⟨S512x100000, .f32⟩
  | .hbm, ⟨50, _⟩ => ⟨S512x100000, .f32⟩
  | .hbm, ⟨51, _⟩ => ⟨S512x100000, .f32⟩
  | .hbm, ⟨52, _⟩ => ⟨S_, .f32⟩
  | .hbm, ⟨53, _⟩ => ⟨S512x100000, .f32⟩
  | .hbm, ⟨54, _⟩ => ⟨S512x100000, .i1⟩
  | .hbm, ⟨55, _⟩ => ⟨S_, .f32⟩
  | .hbm, ⟨56, _⟩ => ⟨S512x100000, .f32⟩
  | .hbm, ⟨57, _⟩ => ⟨S512x100000, .f32⟩
  | .hbm, ⟨58, _⟩ => ⟨S512x100000, .f32⟩
  | .hbm, ⟨59, _⟩ => ⟨S512x1, .i32⟩
  | .hbm, ⟨60, _⟩ => ⟨S1x100000, .i32⟩
  | .hbm, ⟨61, _⟩ => ⟨S512x100000, .i32⟩
  | .hbm, ⟨62, _⟩ => ⟨S512x100000, .i32⟩
  | .hbm, ⟨63, _⟩ => ⟨S512x100000, .i1⟩
  | .hbm, ⟨64, _⟩ => ⟨S512x100000, .f32⟩
  | .hbm, ⟨65, _⟩ => ⟨S_, .f32⟩
  | .hbm, ⟨66, _⟩ => ⟨S512x100000, .f32⟩
  | .hbm, ⟨67, _⟩ => ⟨S512x100000, .i1⟩
  | .hbm, ⟨68, _⟩ => ⟨S512x100000, .f32⟩
  | .hbm, ⟨69, _⟩ => ⟨S_, .f32⟩
  | .hbm, ⟨70, _⟩ => ⟨S512x100000, .f32⟩
  | .hbm, ⟨71, _⟩ => ⟨S512x100000, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_v24 : Ref sig .tc := ⟨.hbm, 47, rfl⟩
abbrev main_cst_9 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_10 : Ref sig .tc := ⟨.hbm, 52, rfl⟩
abbrev main_v28 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v33 : Ref sig .tc := ⟨.hbm, 64, rfl⟩
abbrev main_cst_12 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_13 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S512x100000_S100000_d0 : S512x100000.ReducesTo [0] S100000
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S512x100000_0_1 : S1x100000.BroadcastsInDim S512x100000 (![0, 1] : Fin 2 → Fin S512x100000.rank)
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  dot_S512x512_S512x100000_S512x100000_1_0_0_1_n_n_wf : DotDims.WF S512x512 S512x100000 S512x100000 [1] [0] [0] [1] [] []

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf

class Facts : Prop extends Facts₀ where

variable [Facts]
-- ==== Proof.BodyK.lean ====
/-
  The kernel body, run once on arbitrary whole staging buffers, and the pipeline's proof data over it.

  One grid point of the kernel handles one tile of 1536 columns of the class-weight matrix: it loads the whole
  embedding matrix (512 x 512), the tile (512 x 1536) and the label column (512 x 1), and stores one tile
  (512 x 1536) of scaled logits.  The column extent 100000 is not a multiple of 1536: the last tile's fetch fills
  only its first 160 columns with columns of the array, the other 1376 hold words nothing names, and the
  write-back of the last output tile writes only its first 160 columns.  So what the buffers hold is stated only
  on the part of each tile that lies inside the array.
-/
import proofs.«155746_j6897717477494_2_alg».proof.Proof.Gen.Kernel.Frame
import proofs.«155746_j6897717477494_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the store take the whole buffer -/

abbrev rE : Rect S512x512 := Rect.unit (s := S512x512) ![0, 0] S512x512.size inb_S512x512_S512x512_0_0
abbrev rW : Rect S512x1536 := Rect.unit (s := S512x1536) ![0, 0] S512x1536.size inb_S512x1536_S512x1536_0_0
abbrev rL : Rect S512x1 := Rect.unit (s := S512x1) ![0, 0] S512x1.size inb_S512x1_S512x1_0_0

/-- The tile of scaled logits as a function of the three loaded values: the clipped cosines, the label mask,
    the label column's cosine per row and one minus its square, through the margin formula and the scale. -/
def tileVal (i : grid0.Coords) (v0 : Vec F S512x512 .f32) (v9 : Vec F S512x1536 .f32) (v25 : Vec F S512x1 .i32) :
    Vec F S512x1536 .f32 :=
  k0_pay1 (k0_pay2 v0 v9) (k0_pay3 i v25) (k0_pay4 i v0 v9 v25) (k0_pay5 i v0 v9 v25)
    (Scalar.ofBits .f32 0x358637BD#32) (Scalar.ofBits .f32 0x3F800000#32)

/-- What the output buffer holds after the body: its one store, of the whole tile. -/
def tileOut (i : grid0.Coords) (x0 : Vec F S512x512 .f32) (x1 : Vec F S512x1536 .f32) (x2 : Vec F S512x1 .i32) :
    Vec F S512x1536 .f32 :=
  View.canon [⟨rW, tileVal i (View.ld x0 rE) (View.ld x1 rW) (View.ld x2 rL)⟩]

theorem coverW (p0 : Vec F S512x1536 .f32) (y : S512x1536.Idx) :
    ∃ pc ∈ ([⟨rW, p0⟩] : List (View.Piece (Elt F) S512x1536 .f32)), y ∈ pc.1.set :=
  View.cover_of_tiled [⟨rW, p0⟩] S512x1536.size (by rfl) y

set_option maxHeartbeats 1000000 in
/-- The body on whole staging buffers holding `x0`, `x1`, `x2` and anything: it ends with the three inputs'
    buffers as they were and the output's at `tileOut`. -/
theorem sound_kernel (c : Dev nD) (E : Set ℕ) (i : grid0.Coords)
    (arg1 : Memref sig .tc .vmem S512x512 .f32) (harg1 : arg1.IsWhole)
    (arg2 : Memref sig .tc .vmem S512x1536 .f32) (harg2 : arg2.IsWhole)
    (arg3 : Memref sig .tc .vmem S512x1 .i32) (harg3 : arg3.IsWhole)
    (arg4 : Memref sig .tc .vmem S512x1536 .f32) (harg4 : arg4.IsWhole)
    (x0 : Vec F S512x512 .f32) (x1 : Vec F S512x1536 .f32) (x2 : Vec F S512x1 .i32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (tileOut i x0 x1 x2)) -∗ K ⟨⟩))
      ⊢ wp frame (wpE (defs₀ (F := F)) Variants.none c none) E
          (cc0__margin_kernel i arg1 harg1 arg2 harg2 arg3 harg3 arg4 harg4) K := by
  simp only [cc0__margin_kernel_eq_skeleton]; unfold cc0__margin_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverW _)

end Cert.Kernel.Hand

end
-- ==== Proof.RunK.lean ====
/-
  The pipeline's proof data over the body's triple, the body obligation at every grid point, and the two runs of the
  whole program: one that says nothing of the output array (enough for the frame), one that names what every
  output tile's part inside the array holds (for the value).

  At grid point t the embeddings' buffer and the labels' buffer hold their whole arrays (fetched once, at the first
  point); the weight tile's buffer holds columns 1536·t … of the weight array on its part inside the array and words
  nothing names elsewhere (the last tile overhangs the array by 1376 columns); the output's buffer is overwritten
  whole. Only the part of the output tile inside the array is written back, so only that part is ever stated.
-/
import proofs.«155746_j6897717477494_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What each staging buffer holds after the body at point `t`: the embeddings' and the labels' their arrays, the
    weight tile's its part of the weight array (filled out past the array's end by a word nothing reads), the
    output's a tile `out c t` the caller names (read only on its part inside the array). -/
def dats (out : Dev nD → Fin cfg0.N → S512x1536.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => iblk m c 2 t
    | ⟨3, _⟩ => out c t
  Φ _ := Pipeline.ΦA spec0 c
  q _ := fullShare
  owed _ := 0

variable (out : Dev nD → Fin cfg0.N → S512x1536.Idx → Elt F .f32)

theorem A_eq (c : Dev nD) (w : Fin cfg0.W) : (dats m out 0 c).A w = V m c (Pipeline.arrRef spec0 w) := by
  dsimp only [dats]

theorem after0_0 (c : Dev nD) (t : Fin cfg0.N) : (dats m out 0 c).after 0 t = iblk m c 0 t := by dsimp only [dats]
theorem after0_1 (c : Dev nD) (t : Fin cfg0.N) :
    (dats m out 0 c).after 1 t = win0_1.fill (grid0.coords t) (fun _ => Scalar.ofBits .f32 0#32) (iblk m c 1 t) := by
  dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = out c t := by dsimp only [dats]

/-- The embeddings' and the labels' buffers hold their arrays at every point, fetched there or not. -/
theorem before0_0 (c : Dev nD) (t : Fin cfg0.N) (d) : (dats m out 0 c).before 0 t d = iblk m c 0 t :=
  before0_0_of m (dats m out 0 c) (A_eq m out c 0) (after0_0 m out c) t d
theorem before0_2 (c : Dev nD) (t : Fin cfg0.N) (d) : (dats m out 0 c).before 2 t d = iblk m c 2 t :=
  before0_2_of m (dats m out 0 c) (A_eq m out c 2) (after0_2 m out c) t d

/-- The weight tile is fetched at every point: its buffer holds the tile's part inside the array, and `d` past it. -/
theorem before0_1 (c : Dev nD) (t : Fin cfg0.N) (d) :
    (dats m out 0 c).before 1 t d = win0_1.fill (grid0.coords t) d (iblk m c 1 t) := by
  unfold Dat.before; rw [if_pos (fetch0_1 t)]
  unfold Dat.fetched Dat.blockOf iblk; rw [A_eq]

/-! ## The body at a point -/

/-- The body at point `t` on the point's staging buffers: `sound_kernel` there. -/
theorem sound_point (c : Dev nD) (t : Fin cfg0.N) (x0 : Vec F S512x512 .f32) (x1 : Vec F S512x1536 .f32) (x2 : Vec F S512x1 .i32)
    (K : PUnit → sProp 𝕄) :
    iprop(owns (c : Thread nD τ) (st0_0 t) fullShare x0 ∗ owns (c : Thread nD τ) (st0_1 t) fullShare x1
        ∗ owns (c : Thread nD τ) (st0_2 t) fullShare x2 ∗ (∃ d, owns (c : Thread nD τ) (st0_3 t) fullShare d)
        ∗ (iprop(owns (c : Thread nD τ) (st0_0 t) fullShare x0 ∗ owns (c : Thread nD τ) (st0_1 t) fullShare x1
            ∗ owns (c : Thread nD τ) (st0_2 t) fullShare x2
            ∗ owns (c : Thread nD τ) (st0_3 t) fullShare (tileOut (grid0.coords t) x0 x1 x2)) -∗ K ⟨⟩))
      ⊢ wp frame (wpE (defs₀ (F := F)) Variants.none c none) Set.univ (bodyAt0 t) K :=
  sound_kernel c Set.univ (grid0.coords t) _ _ _ _ _ _ _ _ x0 x1 x2 K

/-- The output window is the one a frame does not read. -/
def forgetOut : Fin 4 → Bool := fun | 0 => false | 1 => false | 2 => false | 3 => true | ⟨_ + 4, h⟩ => absurd h (Nat.not_lt.2 (Nat.le_add_left _ _))

/-- The body obligation with the output's buffer forgotten: handed over and taken back at any contents. -/
theorem body_obligation_forget (c : Dev nD) :
    BodyObligationLoose (dats (F := F) m out 0 c) (defs₀ (F := F)) Variants.none () Set.univ forgetOut := fun t => by
  rw [bigSep_W0, bigSep_W0]
  simp only [forgetOut]
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩⟩
  rw [before0_0 m out c t d0, before0_1 m out c t d1, before0_2 m out c t d2]
  iapply (sound_point (F := F) c t (iblk m c 0 t) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]
  · iexists d1
    rw [after0_1, Window.cut_fill]; iexact H1
  isplitl [H2]; · rw [after0_2]; iexact H2
  iexists _; iexact H3

/-- The body obligation NAMING the output: whatever the weight tile's buffer holds past the array's end (`d`), the
    part of the stored tile inside the array is `out c t`'s (`hout`) — which is all the write-back moves. -/
theorem body_obligation_exact (c : Dev nD)
    (hout : ∀ (t : Fin cfg0.N) (d : S512x1536.Idx → Elt F .f32),
      win0_3.cut (grid0.coords t) (tileOut (grid0.coords t) (iblk m c 0 t) (win0_1.fill (grid0.coords t) d (iblk m c 1 t)) (iblk m c 2 t))
        = win0_3.cut (grid0.coords t) (out c t)) :
    BodyObligationLoose (dats (F := F) m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩⟩
  rw [before0_0 m out c t d0, before0_1 m out c t d1, before0_2 m out c t d2]
  iapply (sound_point (F := F) c t (iblk m c 0 t) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]
  · iexists d1
    rw [after0_1, Window.cut_fill]; iexact H1
  isplitl [H2]; · rw [after0_2]; iexact H2
  iexists (tileOut (grid0.coords t) (iblk m c 0 t) (win0_1.fill (grid0.coords t) d1 (iblk m c 1 t)) (iblk m c 2 t))
  rw [after0_3, Window.fill_congr_cut _ _ (hout t d1)]; iexact H3

/-! ## The runs -/

set_option backward.isDefEq.respectTransparency.types false in
/-- The whole program's run, nothing said of the output array: every argument array of the pipeline ends as the
    region found it, and so does every other unscoped buffer. -/
theorem run_forget : θ_run defs (onTc (τ := τ) (main (F := F))) (s₀ m ρ)
    (Pipeline.RDat.FramePost (cfgs 0) (fun c => (dats m out 0 c).toRForget forgetOut) (V m)) :=
  Pipeline.RDat.θ_run_frame cfgs (0 : Fin 1) launch0 defs₀ Variants.none (fun c => (dats m out 0 c).toRForget forgetOut) m ρ main
    (hbody := fun c => (body_obligation_forget m out c).toRForget)
    (hshare := fun c => ((dats m out 0 c).toRForget forgetOut).share_full fun _ => rfl)
    (howed := fun _ _ => rfl) (V := V m) (hmain := hmain m Variants.none) (hA := A_eq m out) (hΦ := fun _ _ => rfl)

/-- An output tile for a run that reads none: all zero words. -/
def noOut : Dev nD → Fin cfg0.N → S512x1536.Idx → Elt F .f32 := fun _ _ _ => Scalar.ofBits .f32 0#32

/-- THE FRAME: the program runs to the end, nothing faults, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m noOut 0 c).toRForget forgetOut).ArrAt_in 0 rfl _) _) ((h c).1 0)).trans
        ((A_eq m noOut c 0).trans (V_main_arg0 m c)),
      ((h c).2 main_arg1 (Pipeline.mem_restRefs_of main_arg1 (by decide) (by decide))).trans (V_main_arg1 m c),
      (Eq.mp (congrFun (((dats m noOut 0 c).toRForget forgetOut).ArrAt_in 1 rfl _) _) ((h c).1 1)).trans
        ((A_eq m noOut c 1).trans (V_main_arg2 m c))⟩)
    (run_forget m ρ noOut)

set_option backward.isDefEq.respectTransparency.types false in
/-- The whole program's run with the output named: every array of the pipeline ends at what the write-backs of the
    named tiles leave (the inputs as found), every other unscoped buffer as the region found it. -/
theorem run_exact
    (hout : ∀ (c : Dev nD) (t : Fin cfg0.N) (d : S512x1536.Idx → Elt F .f32),
      win0_3.cut (grid0.coords t) (tileOut (grid0.coords t) (iblk m c 0 t) (win0_1.fill (grid0.coords t) d (iblk m c 1 t)) (iblk m c 2 t))
        = win0_3.cut (grid0.coords t) (out c t)) :
    θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => body_obligation_exact m out c (hout c)) (hshare := fun c => (dats m out 0 c).share_full fun _ => rfl)
    (howed := fun _ _ => rfl) (V := V m) (hmain := hmain m Variants.none) (hA := A_eq m out) (hΦ := fun _ _ => rfl)

end Cert.Kernel.Hand

end
-- ==== Proof.Body.lean ====
/-
  The kernel body, run once on arbitrary whole staging buffers, and the pipeline's proof data over it.

  One grid point of the kernel handles one tile of 1536 columns of the class-weight matrix: it loads the whole
  embedding matrix (512 x 512), the tile (512 x 1536) and the label column (512 x 1), and stores one tile
  (512 x 1536) of scaled logits.  The column extent 100000 is not a multiple of 1536: the last tile's fetch fills
  only its first 160 columns with columns of the array, the other 1376 hold words nothing names, and the
  write-back of the last output tile writes only its first 160 columns.  So what the buffers hold is stated only
  on the part of each tile that lies inside the array.
-/
import proofs.«155746_j6897717477494_2_alg».proof.Proof.Gen.KernelIdeal.Frame
import proofs.«155746_j6897717477494_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and the store take the whole buffer -/

abbrev rE : Rect S512x512 := Rect.unit (s := S512x512) ![0, 0] S512x512.size inb_S512x512_S512x512_0_0
abbrev rW : Rect S512x1536 := Rect.unit (s := S512x1536) ![0, 0] S512x1536.size inb_S512x1536_S512x1536_0_0
abbrev rL : Rect S512x1 := Rect.unit (s := S512x1) ![0, 0] S512x1.size inb_S512x1_S512x1_0_0

/-- The tile of scaled logits as a function of the three loaded values: the clipped cosines, the label mask,
    the label column's cosine per row and one minus its square, through the margin formula and the scale. -/
def tileVal (i : grid0.Coords) (v0 : Vec F S512x512 .f32) (v9 : Vec F S512x1536 .f32) (v25 : Vec F S512x1 .i32) :
    Vec F S512x1536 .f32 :=
  k0_pay1 (k0_pay2 v0 v9) (k0_pay3 i v25) (k0_pay4 i v0 v9 v25) (k0_pay5 i v0 v9 v25)
    (Scalar.ofBits .f32 0x358637BD#32) (Scalar.ofBits .f32 0x3F800000#32)

/-- What the output buffer holds after the body: its one store, of the whole tile. -/
def tileOut (i : grid0.Coords) (x0 : Vec F S512x512 .f32) (x1 : Vec F S512x1536 .f32) (x2 : Vec F S512x1 .i32) :
    Vec F S512x1536 .f32 :=
  View.canon [⟨rW, tileVal i (View.ld x0 rE) (View.ld x1 rW) (View.ld x2 rL)⟩]

theorem coverW (p0 : Vec F S512x1536 .f32) (y : S512x1536.Idx) :
    ∃ pc ∈ ([⟨rW, p0⟩] : List (View.Piece (Elt F) S512x1536 .f32)), y ∈ pc.1.set :=
  View.cover_of_tiled [⟨rW, p0⟩] S512x1536.size (by rfl) y

set_option maxHeartbeats 1000000 in
/-- The body on whole staging buffers holding `x0`, `x1`, `x2` and anything: it ends with the three inputs'
    buffers as they were and the output's at `tileOut`. -/
theorem sound_kernel (c : Dev nD) (E : Set ℕ) (i : grid0.Coords)
    (arg1 : Memref sig .tc .vmem S512x512 .f32) (harg1 : arg1.IsWhole)
    (arg2 : Memref sig .tc .vmem S512x1536 .f32) (harg2 : arg2.IsWhole)
    (arg3 : Memref sig .tc .vmem S512x1 .i32) (harg3 : arg3.IsWhole)
    (arg4 : Memref sig .tc .vmem S512x1536 .f32) (harg4 : arg4.IsWhole)
    (x0 : Vec F S512x512 .f32) (x1 : Vec F S512x1536 .f32) (x2 : Vec F S512x1 .i32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (tileOut i x0 x1 x2)) -∗ K ⟨⟩))
      ⊢ wp frame (wpE (defs₀ (F := F)) Variants.none c none) E
          (cc0__margin_kernel i arg1 harg1 arg2 harg2 arg3 harg3 arg4 harg4) K := by
  simp only [cc0__margin_kernel_eq_skeleton]; unfold cc0__margin_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverW _)

end Cert.KernelIdeal.Hand

end
-- ==== Proof.Run.lean ====
/-
  The pipeline's proof data over the body's triple, the body obligation at every grid point, and the two runs of the
  whole program: one that says nothing of the output array (enough for the frame), one that names what every
  output tile's part inside the array holds (for the value).

  At grid point t the embeddings' buffer and the labels' buffer hold their whole arrays (fetched once, at the first
  point); the weight tile's buffer holds columns 1536·t … of the weight array on its part inside the array and words
  nothing names elsewhere (the last tile overhangs the array by 1376 columns); the output's buffer is overwritten
  whole. Only the part of the output tile inside the array is written back, so only that part is ever stated.
-/
import proofs.«155746_j6897717477494_2_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What each staging buffer holds after the body at point `t`: the embeddings' and the labels' their arrays, the
    weight tile's its part of the weight array (filled out past the array's end by a word nothing reads), the
    output's a tile `out c t` the caller names (read only on its part inside the array). -/
def dats (out : Dev nD → Fin cfg0.N → S512x1536.Idx → Elt F .f32) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => iblk m c 2 t
    | ⟨3, _⟩ => out c t
  Φ _ := Pipeline.ΦA spec0 c
  q _ := fullShare
  owed _ := 0

variable (out : Dev nD → Fin cfg0.N → S512x1536.Idx → Elt F .f32)

theorem A_eq (c : Dev nD) (w : Fin cfg0.W) : (dats m out 0 c).A w = V m c (Pipeline.arrRef spec0 w) := by
  dsimp only [dats]

theorem after0_0 (c : Dev nD) (t : Fin cfg0.N) : (dats m out 0 c).after 0 t = iblk m c 0 t := by dsimp only [dats]
theorem after0_1 (c : Dev nD) (t : Fin cfg0.N) :
    (dats m out 0 c).after 1 t = win0_1.fill (grid0.coords t) (fun _ => Scalar.ofBits .f32 0#32) (iblk m c 1 t) := by
  dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = out c t := by dsimp only [dats]

/-- The embeddings' and the labels' buffers hold their arrays at every point, fetched there or not. -/
theorem before0_0 (c : Dev nD) (t : Fin cfg0.N) (d) : (dats m out 0 c).before 0 t d = iblk m c 0 t :=
  before0_0_of m (dats m out 0 c) (A_eq m out c 0) (after0_0 m out c) t d
theorem before0_2 (c : Dev nD) (t : Fin cfg0.N) (d) : (dats m out 0 c).before 2 t d = iblk m c 2 t :=
  before0_2_of m (dats m out 0 c) (A_eq m out c 2) (after0_2 m out c) t d

/-- The weight tile is fetched at every point: its buffer holds the tile's part inside the array, and `d` past it. -/
theorem before0_1 (c : Dev nD) (t : Fin cfg0.N) (d) :
    (dats m out 0 c).before 1 t d = win0_1.fill (grid0.coords t) d (iblk m c 1 t) := by
  unfold Dat.before; rw [if_pos (fetch0_1 t)]
  unfold Dat.fetched Dat.blockOf iblk; rw [A_eq]

/-! ## The body at a point -/

/-- The body at point `t` on the point's staging buffers: `sound_kernel` there. -/
theorem sound_point (c : Dev nD) (t : Fin cfg0.N) (x0 : Vec F S512x512 .f32) (x1 : Vec F S512x1536 .f32) (x2 : Vec F S512x1 .i32)
    (K : PUnit → sProp 𝕄) :
    iprop(owns (c : Thread nD τ) (st0_0 t) fullShare x0 ∗ owns (c : Thread nD τ) (st0_1 t) fullShare x1
        ∗ owns (c : Thread nD τ) (st0_2 t) fullShare x2 ∗ (∃ d, owns (c : Thread nD τ) (st0_3 t) fullShare d)
        ∗ (iprop(owns (c : Thread nD τ) (st0_0 t) fullShare x0 ∗ owns (c : Thread nD τ) (st0_1 t) fullShare x1
            ∗ owns (c : Thread nD τ) (st0_2 t) fullShare x2
            ∗ owns (c : Thread nD τ) (st0_3 t) fullShare (tileOut (grid0.coords t) x0 x1 x2)) -∗ K ⟨⟩))
      ⊢ wp frame (wpE (defs₀ (F := F)) Variants.none c none) Set.univ (bodyAt0 t) K :=
  sound_kernel c Set.univ (grid0.coords t) _ _ _ _ _ _ _ _ x0 x1 x2 K

/-- The output window is the one a frame does not read. -/
def forgetOut : Fin 4 → Bool := fun | 0 => false | 1 => false | 2 => false | 3 => true | ⟨_ + 4, h⟩ => absurd h (Nat.not_lt.2 (Nat.le_add_left _ _))

/-- The body obligation with the output's buffer forgotten: handed over and taken back at any contents. -/
theorem body_obligation_forget (c : Dev nD) :
    BodyObligationLoose (dats (F := F) m out 0 c) (defs₀ (F := F)) Variants.none () Set.univ forgetOut := fun t => by
  rw [bigSep_W0, bigSep_W0]
  simp only [forgetOut]
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩⟩
  rw [before0_0 m out c t d0, before0_1 m out c t d1, before0_2 m out c t d2]
  iapply (sound_point (F := F) c t (iblk m c 0 t) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]
  · iexists d1
    rw [after0_1, Window.cut_fill]; iexact H1
  isplitl [H2]; · rw [after0_2]; iexact H2
  iexists _; iexact H3

/-- The body obligation NAMING the output: whatever the weight tile's buffer holds past the array's end (`d`), the
    part of the stored tile inside the array is `out c t`'s (`hout`) — which is all the write-back moves. -/
theorem body_obligation_exact (c : Dev nD)
    (hout : ∀ (t : Fin cfg0.N) (d : S512x1536.Idx → Elt F .f32),
      win0_3.cut (grid0.coords t) (tileOut (grid0.coords t) (iblk m c 0 t) (win0_1.fill (grid0.coords t) d (iblk m c 1 t)) (iblk m c 2 t))
        = win0_3.cut (grid0.coords t) (out c t)) :
    BodyObligationLoose (dats (F := F) m out 0 c) (defs₀ (F := F)) Variants.none () Set.univ := fun t => by
  rw [bigSep_W0, bigSep_W0]
  simp only
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%d1, H1⟩, ⟨%d2, H2⟩, ⟨%d3, H3⟩⟩
  rw [before0_0 m out c t d0, before0_1 m out c t d1, before0_2 m out c t d2]
  iapply (sound_point (F := F) c t (iblk m c 0 t) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]
  · iexists d1
    rw [after0_1, Window.cut_fill]; iexact H1
  isplitl [H2]; · rw [after0_2]; iexact H2
  iexists (tileOut (grid0.coords t) (iblk m c 0 t) (win0_1.fill (grid0.coords t) d1 (iblk m c 1 t)) (iblk m c 2 t))
  rw [after0_3, Window.fill_congr_cut _ _ (hout t d1)]; iexact H3

/-! ## The runs -/

set_option backward.isDefEq.respectTransparency.types false in
/-- The whole program's run, nothing said of the output array: every argument array of the pipeline ends as the
    region found it, and so does every other unscoped buffer. -/
theorem run_forget : θ_run defs (onTc (τ := τ) (main (F := F))) (s₀ m ρ)
    (Pipeline.RDat.FramePost (cfgs 0) (fun c => (dats m out 0 c).toRForget forgetOut) (V m)) :=
  Pipeline.RDat.θ_run_frame cfgs (0 : Fin 1) launch0 defs₀ Variants.none (fun c => (dats m out 0 c).toRForget forgetOut) m ρ main
    (hbody := fun c => (body_obligation_forget m out c).toRForget)
    (hshare := fun c => ((dats m out 0 c).toRForget forgetOut).share_full fun _ => rfl)
    (howed := fun _ _ => rfl) (V := V m) (hmain := hmain m Variants.none) (hA := A_eq m out) (hΦ := fun _ _ => rfl)

/-- An output tile for a run that reads none: all zero words. -/
def noOut : Dev nD → Fin cfg0.N → S512x1536.Idx → Elt F .f32 := fun _ _ _ => Scalar.ofBits .f32 0#32

/-- THE FRAME: the program runs to the end, nothing faults, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m noOut 0 c).toRForget forgetOut).ArrAt_in 0 rfl _) _) ((h c).1 0)).trans
        ((A_eq m noOut c 0).trans (V_main_arg0 m c)),
      ((h c).2 main_arg1 (Pipeline.mem_restRefs_of main_arg1 (by decide) (by decide))).trans (V_main_arg1 m c),
      (Eq.mp (congrFun (((dats m noOut 0 c).toRForget forgetOut).ArrAt_in 1 rfl _) _) ((h c).1 1)).trans
        ((A_eq m noOut c 1).trans (V_main_arg2 m c))⟩)
    (run_forget m ρ noOut)

set_option backward.isDefEq.respectTransparency.types false in
/-- The whole program's run with the output named: every array of the pipeline ends at what the write-backs of the
    named tiles leave (the inputs as found), every other unscoped buffer as the region found it. -/
theorem run_exact
    (hout : ∀ (c : Dev nD) (t : Fin cfg0.N) (d : S512x1536.Idx → Elt F .f32),
      win0_3.cut (grid0.coords t) (tileOut (grid0.coords t) (iblk m c 0 t) (win0_1.fill (grid0.coords t) d (iblk m c 1 t)) (iblk m c 2 t))
        = win0_3.cut (grid0.coords t) (out c t)) :
    θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => body_obligation_exact m out c (hout c)) (hshare := fun c => (dats m out 0 c).share_full fun _ => rfl)
    (howed := fun _ _ => rfl) (V := V m) (hmain := hmain m Variants.none) (hA := A_eq m out) (hΦ := fun _ _ => rfl)

end Cert.KernelIdeal.Hand

end
-- ==== Proof.Spec.lean ====
/-
  The function both programs compute, entry by entry, on the extended reals.

  Row p of the embedding matrix and column c of the class-weight matrix are each scaled by the reciprocal square
  root of their sum of squares (floored at a small constant); the cosine of the pair is the clipped inner product
  of the two scaled vectors. The logit at (p, c) is 64 times the cosine, except at the label's column, where the
  cosine x is first replaced by  x·cos m − sqrt(clip(1 − x², tiny, 1))·sin m  when x exceeds the threshold, and by
  x − m·sin m otherwise (all four constants as the single-precision words both programs spell).
  Float literals stay as their words: the same word on both sides is never evaluated.
-/
import Idealize.ShloMosaic.PureOps.Ideal
import Idealize.ShloMosaic.PureOps.Ideal.Laws

noncomputable section

namespace Cert.MarginSpec

open Idealize.ShloMosaic

/-- The extended real a single-precision word denotes. -/
abbrev lit (w : BitVec 32) : EReal := Ideal.ofBits .f32 w

/-- The reciprocal of a 512-vector's Euclidean norm, the sum of squares floored at the word 0x2B8CBCCC (about 1e-12). -/
def invNorm (x : Fin 512 → EReal) : EReal :=
  Ideal.rsqrt (max (∑ k : Fin 512, x k * x k) (lit 0x2B8CBCCC#32))

/-- The clipped cosine of a row and a column: the inner product of the two normalised vectors, clipped to
    [−0.999999, 0.999999] (the words 0xBF7FFFEF and 0x3F7FFFEF). -/
def cosv (r c : Fin 512 → EReal) : EReal :=
  min (lit 0x3F7FFFEF#32) (max (lit 0xBF7FFFEF#32) (∑ k : Fin 512, (r k * invNorm r) * (c k * invNorm c)))

/-- The additive angular margin applied to a cosine. -/
def margin (x : EReal) : EReal :=
  Scalar.select (Ideal.cmp .ogt x (lit 0xBF60A940#32))
    (x * lit 0x3F60A940#32
      - Ideal.sqrt (min (lit 0x3F800000#32) (max (lit 0x358637BD#32) (lit 0x3F800000#32 - x * x))) * lit 0x3EF57744#32)
    (x - lit 0x3E757744#32)

/-- One logit: the cosine, with the margin at the label's column, times 64. -/
def logit (atLabel : BitVec 1) (x : EReal) : EReal :=
  Scalar.select atLabel (margin x) x * lit 0x42800000#32

end Cert.MarginSpec

end
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.LibOneHot.lean ====
/-
  One-hot masks on 32-bit integer words, and sums and comparisons taken through them.

  A mask vector that is 1 at exactly one position picks that position's term out of a sum whose other terms are
  masked to zero; an integer equality test that answers 1 says its operands are equal; two numbers below 2^32 with the
  same 32-bit word are equal; and a mask bit converted to the float 0.0 / 1.0 and compared for equality with 1.0 is
  the mask bit again (the form a one-hot encoding written in floats and tested against 1.0 takes).
-/
import Idealize.ShloMosaic.PureOps.Ideal
import Idealize.ShloMosaic.PureOps.Ideal.Laws

noncomputable section

namespace Idealize.ShloMosaic.ValueIdx

/-- A sum all of whose terms but one are masked to zero is that term: if the mask `hit` is 1 at `q` and nowhere else,
    the sum over `q'` of (`f q'` where `hit q'`, else 0) is `f q`. -/
theorem sum_select_single {n : Nat} (f : Fin n → EReal) (hit : Fin n → BitVec 1) (q : Fin n)
    (hq : hit q = 1) (huniq : ∀ q', hit q' = 1 → q' = q) :
    (∑ q' : Fin n, Scalar.select (hit q') (f q') (0 : EReal)) = f q := by
  rw [Finset.sum_eq_single q]
  · unfold Scalar.select; rw [if_pos hq]
  · intro b _ hb; unfold Scalar.select; rw [if_neg (fun h => hb (huniq b h))]
  · intro h; exact absurd (Finset.mem_univ q) h

/-- An integer equality comparison that answers 1 compared equal words. -/
theorem eq_of_cmpi_eq {w : Nat} {x y : BitVec w} (h : IntOp.cmpi .eq x y = 1) : x = y := by
  simp only [IntOp.cmpi] at h
  by_contra hne
  have hb : (x == y) = false := by simpa using hne
  rw [hb] at h
  exact absurd h (by decide)

/-- Two numbers below 2^32 with the same 32-bit word are equal. -/
theorem ofNat32_inj {a b : Nat} (ha : a < 4294967296) (hb : b < 4294967296)
    (h : BitVec.ofNat 32 a = BitVec.ofNat 32 b) : a = b := by
  have := congrArg BitVec.toNat h
  rw [BitVec.toNat_ofNat, BitVec.toNat_ofNat, Nat.mod_eq_of_lt (by omega), Nat.mod_eq_of_lt (by omega)] at this
  exact this

/-- A bit converted to the float 0.0 / 1.0 and compared for equality with the single-precision word of 1.0 is the
    bit, on the extended reals. -/
theorem oeq_one_uitofp (b : BitVec 1) :
    FloatOps.cmpf (F := Ideal) .oeq (FloatOps.uitofp (F := Ideal) .f32 b) (FloatOps.ofBits (F := Ideal) .f32 0x3F800000#32) = b := by
  have h1 : Ideal.ofBits .f32 0x3F800000#32 = 1 := by
    simp [Ideal.ofBits, Ideal.ieee, -EReal.coe_mul]; norm_num
  show Ideal.cmp .oeq (((b.toNat : ℝ) : EReal)) (Ideal.ofBits .f32 0x3F800000#32) = b
  rw [h1]
  unfold Ideal.cmp
  have hb : b = 0 ∨ b = 1 := by
    have := b.toNat_lt_twoPow_of_le (Nat.le_refl 1)
    rcases Nat.lt_or_ge b.toNat 1 with h | h
    · left; exact BitVec.eq_of_toNat_eq (by simp; omega)
    · right; exact BitVec.eq_of_toNat_eq (by simp; omega)
  rcases hb with rfl | rfl <;> simp

end Idealize.ShloMosaic.ValueIdx

end
-- ==== Proof.TileValue.lean ====
/-
  One tile of the kernel's result, entry by entry, on the extended reals.

  The body's stored value is a function of three loaded arrays: the embedding matrix e (512 × 512), a tile w of 1536
  columns of the class-weight matrix (512 × 1536), and the column of labels (512 × 1). Entry (p, q) of the stored
  tile depends on row p of e, on COLUMN q of w only, and on label p:
    • the clipped cosine of row p and column q is read off the matrix product of the two normalised operands
      (the change of format before the product is the identity on the extended reals);
    • the mask at (p, q) says whether label p, less 1536 times the tile's number, is q;
    • the label column's cosine of row p is the row sum of the cosines masked to zero off the label's column, which
      where the mask holds at (p, q) is the cosine at (p, q) itself: every other term of the sum is zero;
    • the stored entry is then the logit of the specification.
  Nothing here asks the tile's other columns to hold anything in particular.
-/
import proofs.«155746_j6897717477494_2_alg».proof.Proof.Gen.KernelIdeal.Skeleton
import proofs.«155746_j6897717477494_2_alg».proof.Proof.Spec
import proofs.«155746_j6897717477494_2_alg».proof.Proof.LibKeepdims
import proofs.«155746_j6897717477494_2_alg».proof.Proof.LibPlainDot
import proofs.«155746_j6897717477494_2_alg».proof.Proof.LibOneHot
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx Cert.MarginSpec

/-! ## The three sums -/

/-- The sum along a row of a 512 × 512 array. -/
theorem rowSum512_apply (x : FVec Ideal S512x512 .f32) (h : S512x512.Reduces [1] S512) (hφ : FKind.Formats .f32)
    (hacc : (0x00000000#32 : BitVec FTy.f32.bits) = FKind.add.neutral .f32 hφ) (p : Fin 512) :
    multiReduction (F := Ideal) .add [1] S512 x 0x00000000#32 h hφ hacc (ix1 p) = ∑ k : Fin 512, x (ix2 p k) := by
  refine (Ideal.multiReduction_add_single x _ h hφ hacc (ix1 p)).trans ?_
  refine Finset.sum_congr rfl fun k _ => congrArg x ?_
  exact funext fun c => Fin.ext (by match c with | ⟨0, _⟩ => rfl | ⟨1, _⟩ => rfl)

/-- The sum down a column of a 512 × 1536 array. -/
theorem colSum_apply (x : FVec Ideal S512x1536 .f32) (h : S512x1536.Reduces [0] S1536) (hφ : FKind.Formats .f32)
    (hacc : (0x00000000#32 : BitVec FTy.f32.bits) = FKind.add.neutral .f32 hφ) (q : Fin 1536) :
    multiReduction (F := Ideal) .add [0] S1536 x 0x00000000#32 h hφ hacc (ix1 q) = ∑ k : Fin 512, x (ix2 k q) := by
  refine (Ideal.multiReduction_add_single x _ h hφ hacc (ix1 q)).trans ?_
  refine Finset.sum_congr rfl fun k _ => congrArg x ?_
  exact funext fun c => Fin.ext (by match c with | ⟨0, _⟩ => rfl | ⟨1, _⟩ => rfl)

/-- The sum along a row of a 512 × 1536 array. -/
theorem rowSum1536_apply (x : FVec Ideal S512x1536 .f32) (h : S512x1536.Reduces [1] S512) (hφ : FKind.Formats .f32)
    (hacc : (0x00000000#32 : BitVec FTy.f32.bits) = FKind.add.neutral .f32 hφ) (p : Fin 512) :
    multiReduction (F := Ideal) .add [1] S512 x 0x00000000#32 h hφ hacc (ix1 p) = ∑ q : Fin 1536, x (ix2 p q) := by
  refine (Ideal.multiReduction_add_single x _ h hφ hacc (ix1 p)).trans ?_
  refine Finset.sum_congr rfl fun k _ => congrArg x ?_
  exact funext fun c => Fin.ext (by match c with | ⟨0, _⟩ => rfl | ⟨1, _⟩ => rfl)

/-! ## The two normalisations -/

/-- The embedding matrix's row factor, broadcast back over the row: the reciprocal norm of row `p`. -/
theorem rowFactor_apply (x : FVec Ideal S512x512 .f32) (hr : S512x512.Reduces [1] S512) (hφ : FKind.Formats .f32)
    (hacc : (0x00000000#32 : BitVec FTy.f32.bits) = FKind.add.neutral .f32 hφ)
    (hc : S512.ShapeCasts S512x1) (hb : S512x1.Broadcasts S512x512) (p k : Fin 512) :
    broadcastTo S512x512 (rsqrt (maximumf (shapeCast S512x1 (multiReduction (F := Ideal) .add [1] S512 (mulf x x) 0x00000000#32 hr hφ hacc) hc)
        (broadcast S512x1 (Scalar.ofBits (F := Ideal) .f32 0x2B8CBCCC#32)))) hb (ix2 p k)
      = invNorm (fun k => x (ix2 p k)) := by
  rw [broadcastTo_a1_ab_apply]
  show Ideal.rsqrt (max (shapeCast S512x1 _ hc (ix2 p (0 : Fin 1))) (lit 0x2B8CBCCC#32)) = _
  rw [shapeCast_a_a1_apply, rowSum512_apply]
  rfl

/-- The weight tile's column factor, broadcast back down the column: the reciprocal norm of column `q`. -/
theorem colFactor_apply (x : FVec Ideal S512x1536 .f32) (hr : S512x1536.Reduces [0] S1536) (hφ : FKind.Formats .f32)
    (hacc : (0x00000000#32 : BitVec FTy.f32.bits) = FKind.add.neutral .f32 hφ)
    (hc : S1536.ShapeCasts S1x1536) (hb : S1x1536.Broadcasts S512x1536) (k : Fin 512) (q : Fin 1536) :
    broadcastTo S512x1536 (rsqrt (maximumf (shapeCast S1x1536 (multiReduction (F := Ideal) .add [0] S1536 (mulf x x) 0x00000000#32 hr hφ hacc) hc)
        (broadcast S1x1536 (Scalar.ofBits (F := Ideal) .f32 0x2B8CBCCC#32)))) hb (ix2 k q)
      = invNorm (fun k => x (ix2 k q)) := by
  rw [broadcastTo_1b_ab_apply]
  show Ideal.rsqrt (max (shapeCast S1x1536 _ hc (ix2 (0 : Fin 1) q)) (lit 0x2B8CBCCC#32)) = _
  rw [shapeCast_a_1a_apply, colSum_apply]
  rfl

/-! ## The clipped cosines -/

theorem dot_is_plain : dot_S512x512_S512x1536_S512x1536_1_0_0_1_n_n = DotDims.plain 512 512 1536 := rfl

/-- Entry (p, q) of the clipped cosines is the specification's cosine of row `p` of the embeddings and column `q`
    of the tile. -/
theorem cos_apply (v0 : FVec Ideal S512x512 .f32) (v9 : FVec Ideal S512x1536 .f32) (p : Fin 512) (q : Fin 1536) :
    k0_pay2 (F := Ideal) v0 v9 (ix2 p q) = cosv (fun k => v0 (ix2 p k)) (fun k => v9 (ix2 k q)) := by
  unfold k0_pay2 cosv
  dsimp only
  show min (lit 0x3F7FFFEF#32) (max (lit 0xBF7FFFEF#32)
    (FloatOps.matmul dot_S512x512_S512x1536_S512x1536_1_0_0_1_n_n none _ _ (constant (F := Ideal) S512x1536 .f32 0x00000000#32) (ix2 p q))) = _
  rw [Ideal.matmul_constant_zero_apply, dot_is_plain]
  refine congrArg (fun s => min (lit 0x3F7FFFEF#32) (max (lit 0xBF7FFFEF#32) s)) ?_
  refine (plain_contr_sum _ _ p q).trans (Finset.sum_congr rfl fun k _ => ?_)
  exact congrArg₂ (fun a b => (v0 (ix2 p k) * a) * (v9 (ix2 k q) * b))
    (rowFactor_apply v0 _ _ _ _ _ p k) (colFactor_apply v9 _ _ _ _ _ k q)

/-! ## The label mask -/

/-- Whether label word `lab`, less 1536 times the tile's number `j`, is the column `q` of the tile. -/
def hitAt (j : Nat) (lab : BitVec 32) (q : Nat) : BitVec 1 :=
  IntOp.cmpi .eq (IntOp.subi lab (Scalar.muli (BitVec.ofNat 32 j) 1536#32)) (BitVec.ofNat 32 q)

/-- Within one tile the mask holds at most at one column of a row. -/
theorem hitAt_unique (j : Nat) (lab : BitVec 32) (q q' : Fin 1536)
    (h : hitAt j lab q.val = 1) (h' : hitAt j lab q'.val = 1) : q' = q := by
  have e := (eq_of_cmpi_eq h').symm.trans (eq_of_cmpi_eq h)
  exact Fin.ext (ofNat32_inj (by have := q'.isLt; omega) (by have := q.isLt; omega) e)

/-- The mask within the tile is the comparison of the label with the column's number in the whole array:
    subtracting 1536·j on the left is adding it on the right (32-bit words form a group). -/
theorem hitAt_eq (j q : Nat) (lab : BitVec 32) :
    hitAt j lab q = IntOp.cmpi .eq lab (BitVec.ofNat 32 (j * 1536 + q)) := by
  have e : BitVec.ofNat 32 (j * 1536 + q) = BitVec.ofNat 32 j * 1536#32 + BitVec.ofNat 32 q := by
    rw [BitVec.ofNat_add, BitVec.ofNat_mul]
  unfold hitAt
  simp only [IntOp.cmpi, IntOp.subi, Scalar.muli, IntOp.muli]
  congr 1
  rw [e, Bool.eq_iff_iff, beq_iff_eq, beq_iff_eq]
  constructor
  · intro h; rw [← h, BitVec.add_comm, BitVec.sub_add_cancel]
  · intro h; rw [h, BitVec.add_comm, BitVec.add_sub_cancel]

/-- Entry (p, q) of the mask. -/
theorem mask_apply (i : grid0.Coords) (v25 : Vec Ideal S512x1 .i32) (p : Fin 512) (q : Fin 1536) :
    k0_pay3 (F := Ideal) i v25 (ix2 p q) = hitAt (i 0).val (v25 (ix2 p (0 : Fin 1))) q.val := by
  unfold k0_pay3 hitAt
  dsimp only
  show IntOp.cmpi .eq (broadcastTo S512x1536 _ broadcasts_S512x1_S512x1536 (ix2 p q))
    (iota .tc S512x1536 32 [1] iota_S512x1536_d1_w32 (ix2 p q)) = _
  rw [broadcastTo_a1_ab_apply, iota_single_apply, shapeCast_self]
  rfl

/-! ## The label column's cosine, and the stored entry -/

/-- The masked row sum: the cosines of row `p` masked to zero off the label's column, summed along the row. -/
theorem labelCos_apply (i : grid0.Coords) (v0 : FVec Ideal S512x512 .f32) (v9 : FVec Ideal S512x1536 .f32)
    (v25 : Vec Ideal S512x1 .i32) (p : Fin 512) (u : Fin 1) :
    k0_pay4 (F := Ideal) i v0 v9 v25 (ix2 p u)
      = ∑ q : Fin 1536, Scalar.select (hitAt (i 0).val (v25 (ix2 p (0 : Fin 1))) q.val)
          (cosv (fun k => v0 (ix2 p k)) (fun k => v9 (ix2 k q))) (0 : EReal) := by
  unfold k0_pay4
  dsimp only
  refine (shapeCast_a_a1_apply _ _ p u).trans ?_
  refine (rowSum1536_apply _ _ _ _ p).trans (Finset.sum_congr rfl fun q _ => ?_)
  show Scalar.select (k0_pay3 (F := Ideal) i v25 (ix2 p q)) (k0_pay2 (F := Ideal) v0 v9 (ix2 p q)) (lit 0x00000000#32) = _
  rw [mask_apply, cos_apply, show lit 0x00000000#32 = 0 from Ideal.ofBits_zero_f32]

/-- Where the mask holds at (p, q), the label column's cosine of row `p` is the cosine at (p, q). -/
theorem labelCos_of_hit (i : grid0.Coords) (v0 : FVec Ideal S512x512 .f32) (v9 : FVec Ideal S512x1536 .f32)
    (v25 : Vec Ideal S512x1 .i32) (p : Fin 512) (u : Fin 1) (q : Fin 1536)
    (hq : hitAt (i 0).val (v25 (ix2 p (0 : Fin 1))) q.val = 1) :
    k0_pay4 (F := Ideal) i v0 v9 v25 (ix2 p u) = cosv (fun k => v0 (ix2 p k)) (fun k => v9 (ix2 k q)) := by
  rw [labelCos_apply]
  exact sum_select_single (fun q => cosv (fun k => v0 (ix2 p k)) (fun k => v9 (ix2 k q)))
    (fun q => hitAt (i 0).val (v25 (ix2 p (0 : Fin 1))) q.val) q hq
    (fun q' h' => hitAt_unique _ _ q q' hq h')

/-- The stored value at (p, q), before the mask is resolved: the margin of the label column's cosine where the mask
    holds, the cosine elsewhere, times 64. -/
theorem stored_apply (i : grid0.Coords) (v0 : FVec Ideal S512x512 .f32) (v9 : FVec Ideal S512x1536 .f32)
    (v25 : Vec Ideal S512x1 .i32) (p : Fin 512) (q : Fin 1536) :
    k0_pay1 (F := Ideal) (k0_pay2 v0 v9) (k0_pay3 i v25) (k0_pay4 i v0 v9 v25) (k0_pay5 i v0 v9 v25)
        (Scalar.ofBits .f32 0x358637BD#32) (Scalar.ofBits .f32 0x3F800000#32) (ix2 p q)
      = Scalar.select (k0_pay3 (F := Ideal) i v25 (ix2 p q))
          (margin (k0_pay4 (F := Ideal) i v0 v9 v25 (ix2 p (0 : Fin 1))))
          (k0_pay2 (F := Ideal) v0 v9 (ix2 p q)) * lit 0x42800000#32 := by
  unfold k0_pay1 k0_pay5
  dsimp only
  show Scalar.select _ (broadcastTo S512x1536 _ broadcasts_S512x1_S512x1536 (ix2 p q)) _ * _ = _
  rw [broadcastTo_a1_ab_apply, shapeCast_self]
  rfl

/-- THE TILE: entry (p, q) of the stored tile is the specification's logit of the mask at (p, q) and the cosine of
    row `p` of the embeddings with column `q` of the tile. -/
theorem tile_apply (i : grid0.Coords) (v0 : FVec Ideal S512x512 .f32) (v9 : FVec Ideal S512x1536 .f32)
    (v25 : Vec Ideal S512x1 .i32) (p : Fin 512) (q : Fin 1536) :
    k0_pay1 (F := Ideal) (k0_pay2 v0 v9) (k0_pay3 i v25) (k0_pay4 i v0 v9 v25) (k0_pay5 i v0 v9 v25)
        (Scalar.ofBits .f32 0x358637BD#32) (Scalar.ofBits .f32 0x3F800000#32) (ix2 p q)
      = logit (hitAt (i 0).val (v25 (ix2 p (0 : Fin 1))) q.val) (cosv (fun k => v0 (ix2 p k)) (fun k => v9 (ix2 k q))) := by
  rw [stored_apply, mask_apply, cos_apply]
  unfold logit
  by_cases hq : hitAt (i 0).val (v25 (ix2 p (0 : Fin 1))) q.val = 1
  · rw [labelCos_of_hit i v0 v9 v25 p 0 q hq]
  · unfold Scalar.select; rw [if_neg hq, if_neg hq]

end Cert.KernelIdeal.Tile

end
-- ==== Proof.Blocks.lean ====
/-
  From tiles to the whole array.

  Grid point t writes back the part inside the array of the tile it stored: columns 1536·t … 1536·t + 1535 of the
  result, cut at column 100000 (the last point, t = 65, writes 160 columns). Every entry of the result array lies in
  exactly the tile of its column's quotient by 1536. Entry (p, q) of tile t is the specification's logit at row p and
  column 1536·t + q of the whole arrays: row p of the embeddings is read whole, column q of the weight tile is column
  1536·t + q of the weights wherever the tile lies inside the array, the label column is the labels reshaped, and
  subtracting 1536·t from the label before comparing it with q compares the label with 1536·t + q.
-/
import proofs.«155746_j6897717477494_2_alg».proof.Proof.Run
import proofs.«155746_j6897717477494_2_alg».proof.Proof.TileValue
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.KernelIdeal.Hand Cert.KernelIdeal.Tile
open Idealize.ShloMosaic Idealize.ShloMosaic.TcCoe Idealize.ShloMosaic.ValueIdx Cert.MarginSpec
open Idealize.SL Idealize.SL.Sem Idealize.ShloMosaic.StableHlo
open Idealize.ShloMosaic.Pipeline (Dat Cfg Window)

theorem hz : (![0, 0] : Fin 2 → Nat) = fun _ => 0 := funext fun a => by fin_cases a <;> rfl

/-- The stored tile at (p, q), over any three buffer contents. -/
theorem tileOut_apply (i : grid0.Coords) (x0 : Vec Ideal S512x512 .f32) (x1 : Vec Ideal S512x1536 .f32) (x2 : Vec Ideal S512x1 .i32)
    (p : Fin 512) (q : Fin 1536) :
    tileOut (F := Ideal) i x0 x1 x2 (ix2 p q)
      = logit (hitAt (i 0).val (x2 (ix2 p (0 : Fin 1))) q.val) (cosv (fun k => x0 (ix2 p k)) (fun k => x1 (ix2 k q))) := by
  unfold tileOut
  rw [View.canon_unit_zero hz]
  simp only [View.ld_unit_zero (S := S512x512) hz, View.ld_unit_zero (S := S512x1536) hz, View.ld_unit_zero (S := S512x1) hz]
  unfold tileVal
  exact tile_apply i x0 x1 x2 p q

/-- The schedule's index maps and cuts, decided once over the grid. -/
theorem grid_facts : ∀ t : Fin cfg0.N,
    (grid0.coords t 0).val = t.val
    ∧ win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_1.xsize (grid0.coords t) (0 : Fin 2) = 512 ∧ win0_1.xsize (grid0.coords t) (1 : Fin 2) = min 1536 (100000 - 1536 * t.val)
    ∧ win0_3.xsize (grid0.coords t) (0 : Fin 2) = 512 ∧ win0_3.xsize (grid0.coords t) (1 : Fin 2) = min 1536 (100000 - 1536 * t.val) :=
  (by decide +kernel : ∀ t : Fin grid0.N, _)

variable (m : (ℓ : Loc nD τ sig) → Buf (Elt Ideal) ℓ) (ρ : Dev nD → PrngReg)

/-! ## The whole result, and the tile of it each point leaves -/

/-- The result array as one function of the three argument arrays: the specification's logit at every entry. -/
def result (c : Dev nD) : Buf (Elt Ideal) ((c.tc : Thread nD τ).loc main_v1) := fun i =>
  let p : Fin 512 := i 0
  let col : Fin 100000 := i 1
  logit (IntOp.cmpi .eq (m ((c.tc : Thread nD τ).loc main_arg1) (ix1 p)) (BitVec.ofNat 32 col.val))
    (cosv (fun k => m ((c.tc : Thread nD τ).loc main_arg0) (ix2 p k)) (fun k => m ((c.tc : Thread nD τ).loc main_arg2) (ix2 k col)))

/-- What the output's buffer is taken to hold after point `t`: the point's block of `result` on the part inside the
    array, zero elsewhere (a part nothing reads). -/
def outTile (c : Dev nD) (t : Fin cfg0.N) : S512x1536.Idx → Elt Ideal .f32 :=
  win0_3.fill (grid0.coords t) (fun _ => (0 : EReal)) ((win0_3.blk t).view.read (Elt Ideal) (result m c))

/-! ## The three input blocks, read where the output's entry needs them -/

/-- The label column the region finds is the labels viewed as a column. -/
theorem labels_eq (c : Dev nD) :
    (V m c main_v0 : S512x1.Idx → BitVec 32) = shapeCast S512x1 (m ((c.tc : Thread nD τ).loc main_arg1)) shapeCasts_S512_S512x1 := by
  dsimp only [Gen.V, Gen.hostOps0]
  after_results
  rfl

/-- The embeddings' block is the whole array: entry (p, k). -/
theorem emb_apply (c : Dev nD) (t : Fin cfg0.N) (p k : Fin 512) :
    iblk m c 0 t (ix2 p k) = m ((c.tc : Thread nD τ).loc main_arg0) (ix2 p k) := by
  obtain ⟨-, a0, a1, -⟩ := grid_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = p.val; omega
  | ⟨1, _⟩ => show win0_0.index t (1 : Fin 2) * 512 + 1 * k.val = k.val; omega

/-- The labels' block is the whole column: entry (p, 0) is label `p`. -/
theorem lab_apply (c : Dev nD) (t : Fin cfg0.N) (p : Fin 512) :
    iblk m c 2 t (ix2 p (0 : Fin 1)) = m ((c.tc : Thread nD τ).loc main_arg1) (ix1 p) := by
  obtain ⟨-, -, -, -, -, a0, a1, -⟩ := grid_facts t
  show V m c main_v0 (((cfg0.win 2).blk t).view.emb (ix2 p (0 : Fin 1))) = _
  have he : ((cfg0.win 2).blk t).view.emb (ix2 p (0 : Fin 1)) = ix2 p (0 : Fin 1) := by
    refine funext fun a => Fin.ext ?_
    match a with
    | ⟨0, _⟩ => show win0_2.index t (0 : Fin 2) * 512 + 1 * p.val = p.val; omega
    | ⟨1, _⟩ => show win0_2.index t (1 : Fin 2) * 1 + 1 * 0 = 0; omega
  rw [he]
  show (V m c main_v0 : S512x1.Idx → BitVec 32) (ix2 p (0 : Fin 1)) = _
  rw [labels_eq, shapeCast_a_a1_apply]

/-- The weight tile's buffer, on its part inside the array: entry (k, q) is the weight at (k, 1536·t + q), whatever the
    buffer holds past the array's end. -/
theorem wtile_apply (c : Dev nD) (t : Fin cfg0.N) (d : S512x1536.Idx → Elt Ideal .f32) (k : Fin 512) (q : Fin 1536)
    (hq : q.val < min 1536 (100000 - 1536 * t.val)) :
    win0_1.fill (grid0.coords t) d (iblk m c 1 t) (ix2 k q)
      = m ((c.tc : Thread nD τ).loc main_arg2) (ix2 k (⟨1536 * t.val + q.val, by omega⟩ : Fin 100000)) := by
  obtain ⟨-, -, -, a0, a1, -, -, -, -, x0, x1, -⟩ := grid_facts t
  have hm : win0_1.moved (grid0.coords t) (ix2 k q) = true := (win0_1.moved_iff _ _).mpr fun a => by
    match a with
    | ⟨0, _⟩ => show k.val < win0_1.xsize (grid0.coords t) (0 : Fin 2); rw [x0]; exact k.isLt
    | ⟨1, _⟩ => show q.val < win0_1.xsize (grid0.coords t) (1 : Fin 2); rw [x1]; exact hq
  unfold Window.fill
  rw [dif_pos hm]
  show V m c main_arg2 (((cfg0.win 1).blk t).view.emb _) = _
  rw [V_main_arg2]
  refine congrArg _ (funext fun a => Fin.ext ?_)
  match a with
  | ⟨0, _⟩ => show win0_1.index t (0 : Fin 2) * 512 + 1 * k.val = k.val; omega
  | ⟨1, _⟩ => show win0_1.index t (1 : Fin 2) * 1536 + 1 * q.val = 1536 * t.val + q.val; omega

/-! ## What each point writes back -/

/-- The part inside the array of the tile the body stores at point `t` is the point's block of `result`. -/
theorem stored_cut (c : Dev nD) (t : Fin cfg0.N) (d : S512x1536.Idx → Elt Ideal .f32) :
    win0_3.cut (grid0.coords t) (tileOut (grid0.coords t) (iblk m c 0 t) (win0_1.fill (grid0.coords t) d (iblk m c 1 t)) (iblk m c 2 t))
      = win0_3.cut (grid0.coords t) (outTile m c t) := by
  unfold outTile
  rw [Window.cut_fill]
  funext y
  obtain ⟨g0, -, -, -, -, -, -, i0, i1, -, -, x0, x1⟩ := grid_facts t
  have hy0 : (y 0).val < win0_3.xsize (grid0.coords t) (0 : Fin 2) := (y 0).isLt
  have hy1 : (y 1).val < win0_3.xsize (grid0.coords t) (1 : Fin 2) := (y 1).isLt
  rw [x0] at hy0; rw [x1] at hy1
  have hx : win0_3.xinj (grid0.coords t) y = ix2 (⟨(y 0).val, hy0⟩ : Fin 512) (⟨(y 1).val, by omega⟩ : Fin 1536) :=
    funext fun a => Fin.ext (by match a with | ⟨0, _⟩ => rfl | ⟨1, _⟩ => rfl)
  have he : (win0_3.blk t).view.emb y
      = ix2 (⟨(y 0).val, hy0⟩ : Fin 512) (⟨1536 * t.val + (y 1).val, by omega⟩ : Fin 100000) := by
    refine funext fun a => Fin.ext ?_
    match a with
    | ⟨0, _⟩ => show win0_3.index t (0 : Fin 2) * 512 + 1 * (y 0).val = (y 0).val; omega
    | ⟨1, _⟩ => show win0_3.index t (1 : Fin 2) * 1536 + 1 * (y 1).val = 1536 * t.val + (y 1).val; omega
  show tileOut (F := Ideal) (grid0.coords t) _ _ _ (win0_3.xinj (grid0.coords t) y) = result m c ((win0_3.blk t).view.emb y)
  rw [hx, he]
  refine (tileOut_apply (grid0.coords t) _ _ _ _ _).trans ?_
  unfold result
  dsimp only
  rw [hitAt_eq, g0, lab_apply]
  refine congrArg₂ (fun a b => logit (IntOp.cmpi .eq _ (BitVec.ofNat 32 a)) b) (by show t.val * 1536 + (y 1).val = 1536 * t.val + (y 1).val; omega) ?_
  refine congrArg₂ cosv (funext fun k => emb_apply m c t _ k) (funext fun k => ?_)
  exact wtile_apply m c t d k _ hy1

/-! ## The tiles cover the array -/

/-- An entry of the array is in point `t`'s block iff each coordinate is in the block's range, cut at the array's end. -/
theorem mem_blk3 (t : Fin cfg0.N) (i : S512x100000.Idx) :
    i ∈ ((cfg0.win 3).blk t).view.set ↔ ∀ a : Fin 2, win0_3.index t a * S512x1536.size a ≤ (i a).val
      ∧ (i a).val < win0_3.index t a * S512x1536.size a + win0_3.xsize (grid0.coords t) a := by
  show i ∈ ((View.whole main_v1).slice (win0_3.rect t)).set ↔ _
  rw [View.set_slice_whole, Rect.mem_set_unit]
  exact Iff.rfl

/-- Every entry of the result lies in the block of the point numbered by its column's quotient by 1536. -/
theorem cover3 (i : S512x100000.Idx) :
    ∃ t : Fin cfg0.N, (cfg0.win 3).flush t = true ∧ i ∈ ((cfg0.win 3).blk t).view.set := by
  have h0 : (i 0).val < 512 := (i 0).isLt
  have h1 : (i 1).val < 100000 := (i 1).isLt
  have hN : grid0.N = 66 := N_0
  obtain ⟨t, ht⟩ : ∃ t : Fin cfg0.N, t.val = (i 1).val / 1536 :=
    ⟨⟨(i 1).val / 1536, by show _ < grid0.N; omega⟩, rfl⟩
  obtain ⟨-, -, -, -, -, -, -, i0, i1, -, -, x0, x1⟩ := grid_facts t
  refine ⟨t, flush0_3 t, (mem_blk3 t i).mpr fun a => ?_⟩
  match a with
  | ⟨0, _⟩ =>
    show win0_3.index t (0 : Fin 2) * 512 ≤ (i 0).val ∧ (i 0).val < win0_3.index t (0 : Fin 2) * 512 + win0_3.xsize (grid0.coords t) (0 : Fin 2)
    rw [i0, x0]; omega
  | ⟨1, _⟩ =>
    show win0_3.index t (1 : Fin 2) * 1536 ≤ (i 1).val ∧ (i 1).val < win0_3.index t (1 : Fin 2) * 1536 + win0_3.xsize (grid0.coords t) (1 : Fin 2)
    rw [i1, x1, ht]; omega

/-- THE RESULT ARRAY after the run is `result`. -/
theorem final3 (c : Dev nD) : (dats m (outTile m) 0 c).arrAt 3 cfg0.N = result m c :=
  (dats m (outTile m) 0 c).arrAt_eq_of_cover 3 (result m c)
    (fun t _ => by
      show (cfg0.win 3).cut (grid0.coords t) ((dats m (outTile m) 0 c).after 3 t) = _
      rw [after0_3]; unfold outTile; exact Window.cut_fill _ _ _ _)
    cover3

/-! ## The run, read -/

/-- The idealized kernel's run: the result array ends at `result`, the three argument arrays as launched. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final3 m c),
      ((h c).1 0).trans (((dats m (outTile m) 0 c).arrAt_in 0 rfl _).trans ((A_eq m (outTile m) c 0).trans (V_main_arg0 m c))),
      ((h c).2 main_arg1 (Pipeline.mem_restRefs_of main_arg1 (by decide) (by decide))).trans (V_main_arg1 m c),
      ((h c).1 1).trans (((dats m (outTile m) 0 c).arrAt_in 1 rfl _).trans ((A_eq m (outTile m) c 1).trans (V_main_arg2 m c)))⟩)
    (run_exact m ρ (outTile m) (stored_cut m))

end Cert.KernelIdeal.Whole

end
-- ==== Proof.RefIsSpec.lean ====
/-
  The reference program's result, entry by entry, is the specification's logit.

  Reading the reference one operation at a time (the stage lemmas of the read-at-an-index module): the two sums of
  squares are the row's and the column's, each kept as a length-one axis and broadcast back; the host's matrix product
  is the sum over k; the two clips are a maximum inside a minimum; the one-hot mask compares the label of the row
  with the column's number, is converted to 0.0 / 1.0 and compared with 1.0 — which gives the comparison back.
-/
import proofs.«155746_j6897717477494_2_alg».proof.Proof.ReadP
import proofs.«155746_j6897717477494_2_alg».proof.Proof.Spec
import proofs.«155746_j6897717477494_2_alg».proof.Proof.LibOneHot
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx Cert.MarginSpec

variable (x0 : (⟨S512x512, .f32⟩ : BufTy).Contents (Elt Ideal)) (x1 : (⟨S512, .i32⟩ : BufTy).Contents (Elt Ideal))
  (x2 : (⟨S512x100000, .f32⟩ : BufTy).Contents (Elt Ideal))

/-! ## Index equations: the composed index functions of the read module, at indices given by coordinates -/

theorem idx_row (p k k' : Fin 512) : idx_main_v1 (idx_main_v2 (idx_main_v6 (ix2 p k))) k' = ix2 p k' :=
  funext fun a => Fin.ext (by match a with | ⟨0, _⟩ => rfl | ⟨1, _⟩ => rfl)

theorem idx_col (k : Fin 512) (c : Fin 100000) (k' : Fin 512) :
    idx_main_v9 (idx_main_v10 (idx_main_v14 (ix2 k c))) k' = ix2 k' c :=
  funext fun a => Fin.ext (by match a with | ⟨0, _⟩ => rfl | ⟨1, _⟩ => rfl)

theorem idx_lhs (p : Fin 512) (c : Fin 100000) (k : Fin 512) : lidx_main_v16 (ix2 p c) k = ix2 p k :=
  funext fun a => Fin.ext (by match a with | ⟨0, _⟩ => rfl | ⟨1, _⟩ => rfl)

theorem idx_rhs (p : Fin 512) (c : Fin 100000) (k : Fin 512) : ridx_main_v16 (ix2 p c) k = ix2 k c :=
  funext fun a => Fin.ext (by match a with | ⟨0, _⟩ => rfl | ⟨1, _⟩ => rfl)

theorem idx_lab (p : Fin 512) (c : Fin 100000) : idx_main_call3_v0 (idx_main_call3_v2 (ix2 p c)) = ix1 p :=
  funext fun a => Fin.ext (by match a with | ⟨0, _⟩ => rfl)

/-! ## The normalised operands -/

/-- The row factor of the embeddings. -/
theorem rowFactor_ref (p k : Fin 512) : val_main_v6 (F := Ideal) x0 (ix2 p k) = invNorm (fun k => x0 (ix2 p k)) := by
  rw [val_main_v6_apply, val_main_v5_apply, val_main_v4_apply, val_main_v2_apply, val_main_v3_apply, val_main_cst_0_apply,
    val_main_v1_apply, val_main_cst_apply]
  simp only [val_main_v0_apply, idx_row, Ideal.hostUnary_rsqrt_def, Ideal.maximumf_def, Ideal.mulf_def, Ideal.ofBits_def,
    Ideal.ofBits_zero_f32, zero_add]
  rfl

/-- The column factor of the class weights. -/
theorem colFactor_ref (k : Fin 512) (c : Fin 100000) :
    val_main_v14 (F := Ideal) x2 (ix2 k c) = invNorm (fun k => x2 (ix2 k c)) := by
  rw [val_main_v14_apply, val_main_v13_apply, val_main_v12_apply, val_main_v10_apply, val_main_v11_apply, val_main_cst_2_apply,
    val_main_v9_apply, val_main_cst_1_apply]
  simp only [val_main_v8_apply, idx_col, Ideal.hostUnary_rsqrt_def, Ideal.maximumf_def, Ideal.mulf_def, Ideal.ofBits_def,
    Ideal.ofBits_zero_f32, zero_add]
  rfl

/-- The clipped cosine at (p, c). -/
theorem cos_ref (p : Fin 512) (c : Fin 100000) :
    val_main_v17 (F := Ideal) x0 x2 (ix2 p c) = cosv (fun k => x0 (ix2 p k)) (fun k => x2 (ix2 k c)) := by
  rw [val_main_v17_apply, val_main_call0_v4_apply, val_main_call0_v3_apply, val_main_cst_4_apply, val_main_call0_v2_apply,
    val_main_call0_v1_apply, val_main_call0_v0_apply, val_main_cst_3_apply, val_main_v16_apply]
  simp only [idx_lhs, idx_rhs, val_main_v7_apply, val_main_v15_apply, rowFactor_ref, colFactor_ref,
    Ideal.maximumf_def, Ideal.minimumf_def, Ideal.mulf_def, Ideal.ofBits_def]
  rfl

/-! ## The margin and the mask -/

/-- The margin branch of the reference, over its own clipped cosine. -/
theorem margin_ref (i : S512x100000.Idx) : val_main_v32 (F := Ideal) x0 x2 i = margin (val_main_v17 (F := Ideal) x0 x2 i) := by
  rw [val_main_v32_apply, val_main_v29_apply, val_main_v28_apply, val_main_cst_10_apply, val_main_v27_apply, val_main_v24_apply,
    val_main_v23_apply, val_main_cst_8_apply, val_main_v26_apply, val_main_v25_apply, val_main_cst_9_apply, val_main_v22_apply,
    val_main_v21_apply, val_main_call1_v4_apply, val_main_call1_v3_apply, val_main_cst_7_apply, val_main_call1_v2_apply,
    val_main_call1_v1_apply, val_main_call1_v0_apply, val_main_cst_6_apply, val_main_v20_apply, val_main_v19_apply,
    val_main_cst_5_apply, val_main_v18_apply, val_main_v31_apply, val_main_v30_apply, val_main_cst_11_apply]
  simp only [Ideal.hostUnary_sqrt_def, Ideal.maximumf_def, Ideal.minimumf_def, Ideal.mulf_def, Ideal.subf_def, Ideal.ofBits_def,
    Ideal.cmpf_def]
  rfl

/-- The reference's mask at (p, c): whether label `p` is the word of `c`. -/
theorem mask_ref (p : Fin 512) (c : Fin 100000) :
    val_main_v35 (F := Ideal) x1 (ix2 p c) = IntOp.cmpi .eq (x1 (ix1 p)) (BitVec.ofNat 32 c.val) := by
  rw [val_main_v35_apply, val_main_v34_apply, val_main_cst_12_apply, val_main_v33_apply, oeq_one_uitofp,
    val_main_call3_v4_apply, val_main_call3_v2_apply, val_main_call3_v0_apply, val_main_call3_v3_apply, val_main_call3_v1_apply,
    idx_lab]

/-- THE REFERENCE: its result at (p, c) is the specification's logit of the label comparison and the cosine. -/
theorem ref_apply (p : Fin 512) (c : Fin 100000) :
    val_main_v38 (F := Ideal) x0 x1 x2 (ix2 p c)
      = logit (IntOp.cmpi .eq (x1 (ix1 p)) (BitVec.ofNat 32 c.val)) (cosv (fun k => x0 (ix2 p k)) (fun k => x2 (ix2 k c))) := by
  rw [val_main_v38_apply, val_main_v37_apply, val_main_cst_13_apply, val_main_v36_apply, mask_ref, margin_ref, cos_ref]
  rfl

end Cert.ReferenceIdeal.RefValue

end
-- ==== Proof.lean ====
/-
  The certificate of an additive-angular-margin logit layer: a kernel that, one tile of 1536 class columns at a time,
  normalises the 512 embeddings by rows and the tile of class weights by columns, takes their product, clips it, replaces
  the label column's cosine by its margin form and scales by 64 — against the reference that does the same on the whole
  512 × 100000 array at once.

  On the extended reals the two agree entry by entry, with no law beyond the identification of the two sides: a tile's
  entry depends on ONE column of the tile, so the tiling does not show; the label column's cosine, which the kernel
  picks out of a row by a masked sum, is the cosine at the label's column because every other term of that sum is
  zero; and the kernel's mask, the label less 1536 times the tile's number compared with the column within the tile, is
  the reference's one-hot mask, the label compared with the column's number. The column extent is not a multiple of
  1536: the last tile overhangs the array, and what its buffer holds past the array's end never reaches the part of
  the output tile that is written back. No precondition is used.

  The three frames: each kernel program's run is the pipeline's, over the body's triple; the reference's is its
  operations' run. The sanctioned idealization rewrote nothing, so `preserves` is trivial.
-/
import proofs.«155746_j6897717477494_2_alg».proof.Defs
import proofs.«155746_j6897717477494_2_alg».proof.Proof.Gen.Kernel
import proofs.«155746_j6897717477494_2_alg».proof.Proof.Gen.KernelIdeal
import proofs.«155746_j6897717477494_2_alg».proof.Proof.Gen.ReferenceIdeal
import proofs.«155746_j6897717477494_2_alg».proof.Proof.Gen.Pre_finite_inputs
import proofs.«155746_j6897717477494_2_alg».proof.Proof.RunK
import proofs.«155746_j6897717477494_2_alg».proof.Proof.Blocks
import proofs.«155746_j6897717477494_2_alg».proof.Proof.RefIsSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its operations' run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the three arguments, both idealized programs end with the result array at the
    specification's logits of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v38_eq, (hagree c).1, (hagree c).2.1, (hagree c).2.2]
  funext i
  obtain ⟨p, col, rfl⟩ : ∃ (p : Fin 512) (col : Fin 100000), i = ix2 p col := ⟨i 0, i 1, eq_ix2 i⟩
  rw [Cert.ReferenceIdeal.RefValue.ref_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
